-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x40 : S_.BroadcastsInDim S512x40 (![] : Fin 0 → Fin S512x40.rank)
  reducesTo_S512x40_S_d0_1 : S512x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S512x40 1) : IVec S_ 1 :=
  let main_c_5 : IVec S_ 1 := constantI S_ 1 1#1
  let main_v17 : IVec S_ 1 := (fun x v => Host.reduce IntOp.andi x v reducesTo_S512x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S20000x512 .f32) (main_arg1 : IVec S2x160000 32) (main_arg2 : FVec F S512x512 .f32) (main_arg3 : FVec F S512 .f32) (main_arg4 : FVec F S512x40 .f32) (main_arg5 : FVec F S40 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x40 .f32 := Host.absf main_arg4
  let main_cst_4 : FVec F S_ .f32 := constant S_ .f32 0x7F800000#32
  let main_v15 : FVec F S512x40 .f32 := broadcastInDim S512x40 ![] bcast_S_S512x40 main_cst_4
  let main_v16 : IVec S512x40 1 := cmpf .olt main_v14 main_v15
  fn_part1 (F := F) main_arg5 main_v13 main_v16
-- ==== Kernel.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S20000 : Shape := ⟨1, ![20000]⟩
abbrev S1x160000 : Shape := ⟨2, ![1, 160000]⟩
abbrev S160000 : Shape := ⟨1, ![160000]⟩
abbrev S180000 : Shape := ⟨1, ![180000]⟩
abbrev S_ : Shape := ⟨0, ![]⟩
abbrev S180000x1 : Shape := ⟨2, ![180000, 1]⟩
abbrev S2000x512 : Shape := ⟨2, ![2000, 512]⟩
abbrev S180000x512 : Shape := ⟨2, ![180000, 512]⟩
abbrev S1x512 : Shape := ⟨2, ![1, 512]⟩
abbrev S20000x40 : Shape := ⟨2, ![20000, 40]⟩
abbrev S2000x40 : Shape := ⟨2, ![2000, 40]⟩
abbrev S180000x40 : Shape := ⟨2, ![180000, 40]⟩
abbrev S1x40 : Shape := ⟨2, ![1, 40]⟩

abbrev nBuf : Space → Nat
  | .hbm => 92
  | .vmem => 10
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x40, .f32⟩
  | .hbm, ⟨5, _⟩ => ⟨S40, .f32⟩
  | .hbm, ⟨6, _⟩ => ⟨S20000, .i32⟩
  | .hbm, ⟨7, _⟩ => ⟨S1x160000, .i32⟩
  | .hbm, ⟨8, _⟩ => ⟨S160000, .i32⟩
  | .hbm, ⟨9, _⟩ => ⟨S180000, .i32⟩
  | .hbm, ⟨10, _⟩ => ⟨S1x160000, .i32⟩
  | .hbm, ⟨11, _⟩ => ⟨S160000, .i32⟩
  | .hbm, ⟨12, _⟩ => ⟨S180000, .i32⟩
  | .hbm, ⟨13, _⟩ => ⟨S_, .f32⟩
  | .hbm, ⟨14, _⟩ => ⟨S180000, .f32⟩
  | .hbm, ⟨15, _⟩ => ⟨S_, .f32⟩
  | .hbm, ⟨16, _⟩ => ⟨S20000, .f32⟩
  | .hbm, ⟨17, _⟩ => ⟨S180000x1, .i32⟩
  | .hbm, ⟨18, _⟩ => ⟨S20000, .f32⟩
  | .hbm, ⟨19, _⟩ => ⟨S_, .f32⟩
  | .hbm, ⟨20, _⟩ => ⟨S20000, .f32⟩
  | .hbm, ⟨21, _⟩ => ⟨S20000, .i1⟩
  | .hbm, ⟨22, _⟩ => ⟨S_, .f32⟩
  | .hbm, ⟨23, _⟩ => ⟨S20000, .f32⟩
  | .hbm, ⟨24, _⟩ => ⟨S20000, .f32⟩
  | .hbm, ⟨25, _⟩ => ⟨S20000, .f32⟩
  | .hbm, ⟨26, _⟩ => ⟨S_, .f32⟩
  | .hbm, ⟨27, _⟩ => ⟨S_, .f32⟩
  | .hbm, ⟨28, _⟩ => ⟨S20000, .f32⟩
  | .hbm, ⟨29, _⟩ => ⟨S20000, .f32⟩
  | .hbm, ⟨30, _⟩ => ⟨S_, .i32⟩
  | .hbm, ⟨31, _⟩ => ⟨S180000, .i32⟩
  | .hbm, ⟨32, _⟩ => ⟨S180000, .i1⟩
  | .hbm, ⟨33, _⟩ => ⟨S_, .i32⟩
  | .hbm, ⟨34, _⟩ => ⟨S180000, .i32⟩
  | .hbm, ⟨35, _⟩ => ⟨S180000, .i32⟩
  | .hbm, ⟨36, _⟩ => ⟨S180000, .i32⟩
  | .hbm, ⟨37, _⟩ => ⟨S180000x1, .i32⟩
  | .hbm, ⟨38, _⟩ => ⟨S180000, .f32⟩
  | .hbm, ⟨39, _⟩ => ⟨S_, .i32⟩
  | .hbm, ⟨40, _⟩ => ⟨S180000, .i32⟩
  | .hbm, ⟨41, _⟩ => ⟨S180000, .i1⟩
  | .hbm, ⟨42, _⟩ => ⟨S_, .i32⟩
  | .hbm, ⟨43, _⟩ => ⟨S180000, .i32⟩
  | .hbm, ⟨44, _⟩ => ⟨S180000, .i32⟩
  | .hbm, ⟨45, _⟩ => ⟨S180000, .i32⟩
  | .hbm, ⟨46, _⟩ => ⟨S180000x1, .i32⟩
  | .hbm, ⟨47, _⟩ => ⟨S180000, .f32⟩
  | .hbm, ⟨48, _⟩ => ⟨S180000, .f32⟩
  | .hbm, ⟨49, _⟩ => ⟨S20000x512, .f32⟩
  | .hbm, ⟨50, _⟩ => ⟨S_, .i32⟩
  | .hbm, ⟨51, _⟩ => ⟨S180000, .i32⟩
  | .hbm, ⟨52, _⟩ => ⟨S180000, .i1⟩
  | .hbm, ⟨53, _⟩ => ⟨S_, .i32⟩
  | .hbm, ⟨54, _⟩ => ⟨S180000, .i32⟩
  | .hbm, ⟨55, _⟩ => ⟨S180000, .i32⟩
  | .hbm, ⟨56, _⟩ => ⟨S180000, .i32⟩
  | .hbm, ⟨57, _⟩ => ⟨S180000x1, .i32⟩
  | .hbm, ⟨58, _⟩ => ⟨S180000x512, .f32⟩
  | .hbm, ⟨59, _⟩ => ⟨S180000x1, .f32⟩
  | .hbm, ⟨60, _⟩ => ⟨S180000x512, .f32⟩
  | .hbm, ⟨61, _⟩ => ⟨S180000x512, .f32⟩
  | .hbm, ⟨62, _⟩ => ⟨S_, .f32⟩
  | .hbm, ⟨63, _⟩ => ⟨S20000x512, .f32⟩
  | .hbm, ⟨64, _⟩ => ⟨S180000x1, .i32⟩
  | .hbm, ⟨65, _⟩ => ⟨S20000x512, .f32⟩
  | .hbm, ⟨66, _⟩ => ⟨S1x512, .f32⟩
  | .hbm, ⟨67, _⟩ => ⟨S20000x512, .f32⟩
  | .hbm, ⟨68, _⟩ => ⟨S20000x512, .f32⟩
  | .hbm, ⟨69, _⟩ => ⟨S_, .f32⟩
  | .hbm, ⟨70, _⟩ => ⟨S20000x512, .f32⟩
  | .hbm, ⟨71, _⟩ => ⟨S20000x512, .f32⟩
  | .hbm, ⟨72, _⟩ => ⟨S20000x40, .f32⟩
  | .hbm, ⟨73, _⟩ => ⟨S_, .i32⟩
  | .hbm, ⟨74, _⟩ => ⟨S180000, .i32⟩
  | .hbm, ⟨75, _⟩ => ⟨S180000, .i1⟩
  | .hbm, ⟨76, _⟩ => ⟨S_, .i32⟩
  | .hbm, ⟨77, _⟩ => ⟨S180000, .i32⟩
  | .hbm, ⟨78, _⟩ => ⟨S180000, .i32⟩
  | .hbm, ⟨79, _⟩ => ⟨S180000, .i32⟩
  | .hbm, ⟨80, _⟩ => ⟨S180000x1, .i32⟩
  | .hbm, ⟨81, _⟩ => ⟨S180000x40, .f32⟩
  | .hbm, ⟨82, _⟩ => ⟨S180000x1, .f32⟩
  | .hbm, ⟨83, _⟩ => ⟨S180000x40, .f32⟩
  | .hbm, ⟨84, _⟩ => ⟨S180000x40, .f32⟩
  | .hbm, ⟨85, _⟩ => ⟨S_, .f32⟩
  | .hbm, ⟨86, _⟩ => ⟨S20000x40, .f32⟩
  | .hbm, ⟨87, _⟩ => ⟨S180000x1, .i32⟩
  | .hbm, ⟨88, _⟩ => ⟨S20000x40, .f32⟩
  | .hbm, ⟨89, _⟩ => ⟨S1x40, .f32⟩
  | .hbm, ⟨90, _⟩ => ⟨S20000x40, .f32⟩
  | .hbm, ⟨91, _⟩ => ⟨S20000x40, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x512, .f32⟩
  | .local _ .vmem, ⟨4, _⟩ => ⟨S2000x512, .f32⟩
  | .local _ .vmem, ⟨5, _⟩ => ⟨S2000x512, .f32⟩
  | .local _ .vmem, ⟨6, _⟩ => ⟨S2000x512, .f32⟩
  | .local _ .vmem, ⟨7, _⟩ => ⟨S512x40, .f32⟩
  | .local _ .vmem, ⟨8, _⟩ => ⟨S2000x40, .f32⟩
  | .local _ .vmem, ⟨9, _⟩ => ⟨S2000x40, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x160000_S1x160000_0_0 : S2x160000.Slices ![0, 0] S1x160000
  shapeCasts_S1x160000_S160000 : S1x160000.ShapeCasts S160000
  concatenates_S160000_S20000_S180000_d0 : Shape.Concatenates [S160000, S20000] S180000 0
  slices_S2x160000_S1x160000_1_0 : S2x160000.Slices ![1, 0] S1x160000
  bcast_S_S180000 : S_.BroadcastsInDim S180000 (![] : Fin 0 → Fin S180000.rank)
  bcast_S_S20000 : S_.BroadcastsInDim S20000 (![] : Fin 0 → Fin S20000.rank)
  bcast_S180000_S180000x1_0 : S180000.BroadcastsInDim S180000x1 (![0] : Fin 1 → Fin S180000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  bcast_S180000x1_S180000x512_0_1 : S180000x1.BroadcastsInDim S180000x512 (![0, 1] : Fin 2 → Fin S180000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  shapeCasts_S2000x512_S2000x512 : S2000x512.ShapeCasts S2000x512
  inb_S512x40_S512x40_0_0 : ∀ a, (![0, 0] : Fin 2 → Nat) a + S512x40.size a ≤ S512x40.size a
  h_S512x40 : 0 < S512x40.numel
  inb_S2000x40_S2000x40_0_0 : ∀ a, (![0, 0] : Fin 2 → Nat) a + S2000x40.size a ≤ S2000x40.size a
  h_S2000x40 : 0 < S2000x40.numel
  bcast_S180000x1_S180000x40_0_1 : S180000x1.BroadcastsInDim S180000x40 (![0, 1] : Fin 2 → Fin S180000x40.rank)
  bcast_S_S20000x40 : S_.BroadcastsInDim S20000x40 (![] : Fin 0 → Fin S20000x40.rank)
  bcast_S40_S1x40_1 : S40.BroadcastsInDim S1x40 (![1] : Fin 1 → Fin S1x40.rank)
  bcast_S1x40_S20000x40_0_1 : S1x40.BroadcastsInDim S20000x40 (![0, 1] : Fin 2 → Fin S20000x40.rank)
  scatter_S20000_S180000x1_S180000_n_0_0_1_wf : ScatterDims.WF S20000 S180000x1 S180000 [] [0] [0] 1
  gather_S20000_S180000x1_S180000_n_0_n_n_0_1_1_wf : GatherDims.WF S20000 S180000x1 S180000 [] [0] [] [0] [] 1 ![1]
  dot_S2000x512_S512x512_S2000x512_1_0_0_1_n_n_wf : DotDims.WF S2000x512 S512x512 S2000x512 [1] [0] [0] [1] [] []
  gather_S20000x512_S180000x1_S180000x512_1_0_n_n_0_1_1512_wf : GatherDims.WF S20000x512 S180000x1 S180000x512 [1] [0] [] [0] [] 1 ![1, 512]
  scatter_S20000x512_S180000x1_S180000x512_1_0_0_1_wf : ScatterDims.WF S20000x512 S180000x1 S180000x512 [1] [0] [0] 1
  dot_S2000x512_S512x40_S2000x40_1_0_0_1_n_n_wf : DotDims.WF S2000x512 S512x40 S2000x40 [1] [0] [0] [1] [] []
  gather_S20000x40_S180000x1_S180000x40_1_0_n_n_0_1_140_wf : GatherDims.WF S20000x40 S180000x1 S180000x40 [1] [0] [] [0] [] 1 ![1, 40]
  scatter_S20000x40_S180000x1_S180000x40_1_0_0_1_wf : ScatterDims.WF S20000x40 S180000x1 S180000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x512.size a ≤ S20000x512.size a
  hwx0_2 : ∀ i : grid0.Coords, EltTy.bits .f32 = 32 ∨ (Rect.block (s := S20000x512) S2000x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x40.size a ≤ S512x40.size a
  hwx1_1 : ∀ i : grid1.Coords, EltTy.bits .f32 = 32 ∨ (Rect.block (s := S512x40) S512x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x40.size a ≤ S20000x40.size a
  hwx1_2 : ∀ i : grid1.Coords, EltTy.bits .f32 = 32 ∨ (Rect.block (s := S20000x40) S2000x40.size (cc1_transform_2 i) (hinb1_2 i)).WholeWords (EltTy.packing .f32)

variable [Facts₀]

def scatter_S20000_S180000x1_S180000_n_0_0_1 : ScatterDims S20000 S180000x1 S180000 where
  updateWindowDims := []
  insertedWindowDims := [0]
  scatterDimsToOperandDims := [0]
  indexVectorDim := 1
  wf := scatter_S20000_S180000x1_S180000_n_0_0_1_wf
def gather_S20000_S180000x1_S180000_n_0_n_n_0_1_1 : GatherDims S20000 S180000x1 S180000 where
  offsetDims := []
  collapsedSliceDims := [0]
  operandBatchingDims := []
  startIndicesBatchingDims := []
  startIndexMap := [0]
  indexVectorDim := 1
  sliceSizes := ![1]
  wf := gather_S20000_S180000x1_S180000_n_0_n_n_0_1_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S180000x1_S180000x512_1_0_n_n_0_1_1512 : GatherDims S20000x512 S180000x1 S180000x512 where
  offsetDims := [1]
  collapsedSliceDims := [0]
  operandBatchingDims := []
  startIndicesBatchingDims := []
  startIndexMap := [0]
  indexVectorDim := 1
  sliceSizes := ![1, 512]
  wf := gather_S20000x512_S180000x1_S180000x512_1_0_n_n_0_1_1512_wf
def scatter_S20000x512_S180000x1_S180000x512_1_0_0_1 : ScatterDims S20000x512 S180000x1 S180000x512 where
  updateWindowDims := [1]
  insertedWindowDims := [0]
  scatterDimsToOperandDims := [0]
  indexVectorDim := 1
  wf := scatter_S20000x512_S180000x1_S180000x512_1_0_0_1_wf
def dot_S2000x512_S512x40_S2000x40_1_0_0_1_n_n : DotDims S2000x512 S512x40 S2000x40 where
  lhsContracting := [1]
  rhsContracting := [0]
  lhsNonContracting := [0]
  rhsNonContracting := [1]
  lhsBatch := []
  rhsBatch := []
  wf := dot_S2000x512_S512x40_S2000x40_1_0_0_1_n_n_wf
def gather_S20000x40_S180000x1_S180000x40_1_0_n_n_0_1_140 : GatherDims S20000x40 S180000x1 S180000x40 where
  offsetDims := [1]
  collapsedSliceDims := [0]
  operandBatchingDims := []
  startIndicesBatchingDims := []
  startIndexMap := [0]
  indexVectorDim := 1
  sliceSizes := ![1, 40]
  wf := gather_S20000x40_S180000x1_S180000x40_1_0_n_n_0_1_140_wf
def scatter_S20000x40_S180000x1_S180000x40_1_0_0_1 : ScatterDims S20000x40 S180000x1 S180000x40 where
  updateWindowDims := [1]
  insertedWindowDims := [0]
  scatterDimsToOperandDims := [0]
  indexVectorDim := 1
  wf := scatter_S20000x40_S180000x1_S180000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S2000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S20000x512 : Shape := ⟨2, ![20000, 512]⟩
abbrev S2x160000 : Shape := ⟨2, ![2, 160000]⟩
abbrev S512x512 : Shape := ⟨2, ![512, 512]⟩
abbrev S512 : Shape := ⟨1, ![512]⟩
abbrev S512x40 : Shape := ⟨2, ![512, 40]⟩
abbrev S40 : Shape := ⟨1, ![40]⟩
abbrev S20000 : Shape := ⟨1, ![20000]⟩
abbrev S1x160000 : Shape := ⟨2, ![1, 160000]⟩
abbrev S160000 : Shape := ⟨1, ![160000]⟩
abbrev S180000 : Shape := ⟨1, ![180000]⟩
abbrev S_ : Shape := ⟨0, ![]⟩
abbrev S180000x1 : Shape := ⟨2, ![180000, 1]⟩
abbrev S180000x512 : Shape := ⟨2, ![180000, 512]⟩
abbrev S1x512 : Shape := ⟨2, ![1, 512]⟩
abbrev S20000x40 : Shape := ⟨2, ![20000, 40]⟩
abbrev S180000x40 : Shape := ⟨2, ![180000, 40]⟩
abbrev S1x40 : Shape := ⟨2, ![1, 40]⟩

abbrev nBuf : Space → Nat
  | .hbm => 128
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S512x512, .f32⟩
  | .hbm, ⟨3, _⟩ => ⟨S512, .f32⟩
  | .hbm, ⟨4, _⟩ => ⟨S512x40, .f32⟩
  | .hbm, ⟨5, _⟩ => ⟨S40, .f32⟩
  | .hbm, ⟨6, _⟩ => ⟨S20000, .i32⟩
  | .hbm, ⟨7, _⟩ => ⟨S1x160000, .i32⟩
  | .hbm, ⟨8, _⟩ => ⟨S160000, .i32⟩
  | .hbm, ⟨9, _⟩ => ⟨S180000, .i32⟩
  | .hbm, ⟨10, _⟩ => ⟨S1x160000, .i32⟩
  | .hbm, ⟨11, _⟩ => ⟨S160000, .i32⟩
  | .hbm, ⟨12, _⟩ => ⟨S180000, .i32⟩
  | .hbm, ⟨13, _⟩ => ⟨S20000x512, .f32⟩
  | .hbm, ⟨14, _⟩ => ⟨S_, .f32⟩
  | .hbm, ⟨15, _⟩ => ⟨S180000, .f32⟩
  | .hbm, ⟨16, _⟩ => ⟨S_, .f32⟩
  | .hbm, ⟨17, _⟩ => ⟨S20000, .f32⟩
  | .hbm, ⟨18, _⟩ => ⟨S180000x1, .i32⟩
  | .hbm, ⟨19, _⟩ => ⟨S20000, .f32⟩
  | .hbm, ⟨20, _⟩ => ⟨S_, .f32⟩
  | .hbm, ⟨21, _⟩ => ⟨S20000, .f32⟩
  | .hbm, ⟨22, _⟩ => ⟨S20000, .i1⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S20000, .f32⟩
  | .hbm, ⟨27, _⟩ => ⟨S_, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S_, .i32⟩
  | .hbm, ⟨32, _⟩ => ⟨S180000, .i32⟩
  | .hbm, ⟨33, _⟩ => ⟨S180000, .i1⟩
  | .hbm, ⟨34, _⟩ => ⟨S_, .i32⟩
  | .hbm, ⟨35, _⟩ => ⟨S180000, .i32⟩
  | .hbm, ⟨36, _⟩ => ⟨S180000, .i32⟩
  | .hbm, ⟨37, _⟩ => ⟨S180000, .i32⟩
  | .hbm, ⟨38, _⟩ => ⟨S180000x1, .i32⟩
  | .hbm, ⟨39, _⟩ => ⟨S180000, .f32⟩
  | .hbm, ⟨40, _⟩ => ⟨S_, .i32⟩
  | .hbm, ⟨41, _⟩ => ⟨S180000, .i32⟩
  | .hbm, ⟨42, _⟩ => ⟨S180000, .i1⟩
  | .hbm, ⟨43, _⟩ => ⟨S_, .i32⟩
  | .hbm, ⟨44, _⟩ => ⟨S180000, .i32⟩
  | .hbm, ⟨45, _⟩ => ⟨S180000, .i32⟩
  | .hbm, ⟨46, _⟩ => ⟨S180000, .i32⟩
  | .hbm, ⟨47, _⟩ => ⟨S180000x1, .i32⟩
  | .hbm, ⟨48, _⟩ => ⟨S180000, .f32⟩
  | .hbm, ⟨49, _⟩ => ⟨S180000, .f32⟩
  | .hbm, ⟨50, _⟩ => ⟨S_, .i32⟩
  | .hbm, ⟨51, _⟩ => ⟨S180000, .i32⟩
  | .hbm, ⟨52, _⟩ => ⟨S180000, .i1⟩
  | .hbm, ⟨53, _⟩ => ⟨S_, .i32⟩
  | .hbm, ⟨54, _⟩ => ⟨S180000, .i32⟩
  | .hbm, ⟨55, _⟩ => ⟨S180000, .i32⟩
  | .hbm, ⟨56, _⟩ => ⟨S180000, .i32⟩
  | .hbm, ⟨57, _⟩ => ⟨S180000x1, .i32⟩
  | .hbm, ⟨58, _⟩ => ⟨S180000x512, .f32⟩
  | .hbm, ⟨59, _⟩ => ⟨S180000x1, .f32⟩
  | .hbm, ⟨60, _⟩ => ⟨S180000x512, .f32⟩
  | .hbm, ⟨61, _⟩ => ⟨S180000x512, .f32⟩
  | .hbm, ⟨62, _⟩ => ⟨S_, .f32⟩
  | .hbm, ⟨63, _⟩ => ⟨S20000x512, .f32⟩
  | .hbm, ⟨64, _⟩ => ⟨S180000x1, .i32⟩
  | .hbm, ⟨65, _⟩ => ⟨S20000x512, .f32⟩
  | .hbm, ⟨66, _⟩ => ⟨S1x512, .f32⟩
  | .hbm, ⟨67, _⟩ => ⟨S20000x512, .f32⟩
  | .hbm, ⟨68, _⟩ => ⟨S20000x512, .f32⟩
  | .hbm, ⟨69, _⟩ => ⟨S_, .f32⟩
  | .hbm, ⟨70, _⟩ => ⟨S20000x512, .f32⟩
  | .hbm, ⟨71, _⟩ => ⟨S20000x512, .f32⟩
  | .hbm, ⟨72, _⟩ => ⟨S20000x40, .f32⟩
  | .hbm, ⟨73, _⟩ => ⟨S_, .f32⟩
  | .hbm, ⟨74, _⟩ => ⟨S180000, .f32⟩
  | .hbm, ⟨75, _⟩ => ⟨S_, .f32⟩
  | .hbm, ⟨76, _⟩ => ⟨S20000, .f32⟩
  | .hbm, ⟨77, _⟩ => ⟨S180000x1, .i32⟩
  | .hbm, ⟨78, _⟩ => ⟨S20000, .f32⟩
  | .hbm, ⟨79, _⟩ => ⟨S_, .f32⟩
  | .hbm, ⟨80, _⟩ => ⟨S20000, .f32⟩
  | .hbm, ⟨81, _⟩ => ⟨S20000, .i1⟩
  | .hbm, ⟨82, _⟩ => ⟨S_, .f32⟩
  | .hbm, ⟨83, _⟩ => ⟨S20000, .f32⟩
  | .hbm, ⟨84, _⟩ => ⟨S20000, .f32⟩
  | .hbm, ⟨85, _⟩ => ⟨S20000, .f32⟩
  | .hbm, ⟨86, _⟩ => ⟨S_, .f32⟩
  | .hbm, ⟨87, _⟩ => ⟨S_, .f32⟩
  | .hbm, ⟨88, _⟩ => ⟨S20000, .f32⟩
  | .hbm, ⟨89, _⟩ => ⟨S20000, .f32⟩
  | .hbm, ⟨90, _⟩ => ⟨S_, .i32⟩
  | .hbm, ⟨91, _⟩ => ⟨S180000, .i32⟩
  | .hbm, ⟨92, _⟩ => ⟨S180000, .i1⟩
  | .hbm, ⟨93, _⟩ => ⟨S_, .i32⟩
  | .hbm, ⟨94, _⟩ => ⟨S180000, .i32⟩
  | .hbm, ⟨95, _⟩ => ⟨S180000, .i32⟩
  | .hbm, ⟨96, _⟩ => ⟨S180000, .i32⟩
  | .hbm, ⟨97, _⟩ => ⟨S180000x1, .i32⟩
  | .hbm, ⟨98, _⟩ => ⟨S180000, .f32⟩
  | .hbm, ⟨99, _⟩ => ⟨S_, .i32⟩
  | .hbm, ⟨100, _⟩ => ⟨S180000, .i32⟩
  | .hbm, ⟨101, _⟩ => ⟨S180000, .i1⟩
  | .hbm, ⟨102, _⟩ => ⟨S_, .i32⟩
  | .hbm, ⟨103, _⟩ => ⟨S180000, .i32⟩
  | .hbm, ⟨104, _⟩ => ⟨S180000, .i32⟩
  | .hbm, ⟨105, _⟩ => ⟨S180000, .i32⟩
  | .hbm, ⟨106, _⟩ => ⟨S180000x1, .i32⟩
  | .hbm, ⟨107, _⟩ => ⟨S180000, .f32⟩
  | .hbm, ⟨108, _⟩ => ⟨S180000, .f32⟩
  | .hbm, ⟨109, _⟩ => ⟨S_, .i32⟩
  | .hbm, ⟨110, _⟩ => ⟨S180000, .i32⟩
  | .hbm, ⟨111, _⟩ => ⟨S180000, .i1⟩
  | .hbm, ⟨112, _⟩ => ⟨S_, .i32⟩
  | .hbm, ⟨113, _⟩ => ⟨S180000, .i32⟩
  | .hbm, ⟨114, _⟩ => ⟨S180000, .i32⟩
  | .hbm, ⟨115, _⟩ => ⟨S180000, .i32⟩
  | .hbm, ⟨116, _⟩ => ⟨S180000x1, .i32⟩
  | .hbm, ⟨117, _⟩ => ⟨S180000x40, .f32⟩
  | .hbm, ⟨118, _⟩ => ⟨S180000x1, .f32⟩
  | .hbm, ⟨119, _⟩ => ⟨S180000x40, .f32⟩
  | .hbm, ⟨120, _⟩ => ⟨S180000x40, .f32⟩
  | .hbm, ⟨121, _⟩ => ⟨S_, .f32⟩
  | .hbm, ⟨122, _⟩ => ⟨S20000x40, .f32⟩
  | .hbm, ⟨123, _⟩ => ⟨S180000x1, .i32⟩
  | .hbm, ⟨124, _⟩ => ⟨S20000x40, .f32⟩
  | .hbm, ⟨125, _⟩ => ⟨S1x40, .f32⟩
  | .hbm, ⟨126, _⟩ => ⟨S20000x40, .f32⟩
  | .hbm, ⟨127, _⟩ => ⟨S20000x40, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_cst_10 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_v55 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_14 : Ref sig .tc := ⟨.hbm, 86, rfl⟩
abbrev main_call2_v0 : Ref sig .tc := ⟨.hbm, 87, rfl⟩
abbrev main_call2_v1 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_19 : Ref sig .tc := ⟨.hbm, 109, rfl⟩
abbrev main_v76 : Ref sig .tc := ⟨.hbm, 110, rfl⟩
abbrev main_v77 : Ref sig .tc := ⟨.hbm, 111, rfl⟩
abbrev main_c_20 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  concatenates_S160000_S20000_S180000_d0 : Shape.Concatenates [S160000, S20000] S180000 0
  slices_S2x160000_S1x160000_1_0 : S2x160000.Slices ![1, 0] S1x160000
  bcast_S_S180000 : S_.BroadcastsInDim S180000 (![] : Fin 0 → Fin S180000.rank)
  bcast_S_S20000 : S_.BroadcastsInDim S20000 (![] : Fin 0 → Fin S20000.rank)
  bcast_S180000_S180000x1_0 : S180000.BroadcastsInDim S180000x1 (![0] : Fin 1 → Fin S180000x1.rank)
  bcast_S180000x1_S180000x512_0_1 : S180000x1.BroadcastsInDim S180000x512 (![0, 1] : Fin 2 → Fin S180000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S180000x1_S180000x40_0_1 : S180000x1.BroadcastsInDim S180000x40 (![0, 1] : Fin 2 → Fin S180000x40.rank)
  bcast_S_S20000x40 : S_.BroadcastsInDim S20000x40 (![] : Fin 0 → Fin S20000x40.rank)
  bcast_S40_S1x40_1 : S40.BroadcastsInDim S1x40 (![1] : Fin 1 → Fin S1x40.rank)
  bcast_S1x40_S20000x40_0_1 : S1x40.BroadcastsInDim S20000x40 (![0, 1] : Fin 2 → Fin S20000x40.rank)
  dot_S20000x512_S512x512_S20000x512_1_0_0_1_n_n_wf : DotDims.WF S20000x512 S512x512 S20000x512 [1] [0] [0] [1] [] []
  scatter_S20000_S180000x1_S180000_n_0_0_1_wf : ScatterDims.WF S20000 S180000x1 S180000 [] [0] [0] 1
  gather_S20000_S180000x1_S180000_n_0_n_n_0_1_1_wf : GatherDims.WF S20000 S180000x1 S180000 [] [0] [] [0] [] 1 ![1]
  gather_S20000x512_S180000x1_S180000x512_1_0_n_n_0_1_1512_wf : GatherDims.WF S20000x512 S180000x1 S180000x512 [1] [0] [] [0] [] 1 ![1, 512]
  scatter_S20000x512_S180000x1_S180000x512_1_0_0_1_wf : ScatterDims.WF S20000x512 S180000x1 S180000x512 [1] [0] [0] 1
  dot_S20000x512_S512x40_S20000x40_1_0_0_1_n_n_wf : DotDims.WF S20000x512 S512x40 S20000x40 [1] [0] [0] [1] [] []
  gather_S20000x40_S180000x1_S180000x40_1_0_n_n_0_1_140_wf : GatherDims.WF S20000x40 S180000x1 S180000x40 [1] [0] [] [0] [] 1 ![1, 40]
  scatter_S20000x40_S180000x1_S180000x40_1_0_0_1_wf : ScatterDims.WF S20000x40 S180000x1 S180000x40 [1] [0] [0] 1

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S20000_S180000x1_S180000_n_0_0_1 : ScatterDims S20000 S180000x1 S180000 where
  updateWindowDims := []
  insertedWindowDims := [0]
  scatterDimsToOperandDims := [0]
  indexVectorDim := 1
  wf := scatter_S20000_S180000x1_S180000_n_0_0_1_wf
def gather_S20000_S180000x1_S180000_n_0_n_n_0_1_1 : GatherDims S20000 S180000x1 S180000 where
  offsetDims := []
  collapsedSliceDims := [0]
  operandBatchingDims := []
  startIndicesBatchingDims := []
  startIndexMap := [0]
  indexVectorDim := 1
  sliceSizes := ![1]
  wf := gather_S20000_S180000x1_S180000_n_0_n_n_0_1_1_wf
def gather_S20000x512_S180000x1_S180000x512_1_0_n_n_0_1_1512 : GatherDims S20000x512 S180000x1 S180000x512 where
  offsetDims := [1]
  collapsedSliceDims := [0]
  operandBatchingDims := []
  startIndicesBatchingDims := []
  startIndexMap := [0]
  indexVectorDim := 1
  sliceSizes := ![1, 512]
  wf := gather_S20000x512_S180000x1_S180000x512_1_0_n_n_0_1_1512_wf
def scatter_S20000x512_S180000x1_S180000x512_1_0_0_1 : ScatterDims S20000x512 S180000x1 S180000x512 where
  updateWindowDims := [1]
  insertedWindowDims := [0]
  scatterDimsToOperandDims := [0]
  indexVectorDim := 1
  wf := scatter_S20000x512_S180000x1_S180000x512_1_0_0_1_wf
def dot_S20000x512_S512x40_S20000x40_1_0_0_1_n_n : DotDims S20000x512 S512x40 S20000x40 where
  lhsContracting := [1]
  rhsContracting := [0]
  lhsNonContracting := [0]
  rhsNonContracting := [1]
  lhsBatch := []
  rhsBatch := []
  wf := dot_S20000x512_S512x40_S20000x40_1_0_0_1_n_n_wf
def gather_S20000x40_S180000x1_S180000x40_1_0_n_n_0_1_140 : GatherDims S20000x40 S180000x1 S180000x40 where
  offsetDims := [1]
  collapsedSliceDims := [0]
  operandBatchingDims := []
  startIndicesBatchingDims := []
  startIndexMap := [0]
  indexVectorDim := 1
  sliceSizes := ![1, 40]
  wf := gather_S20000x40_S180000x1_S180000x40_1_0_n_n_0_1_140_wf
def scatter_S20000x40_S180000x1_S180000x40_1_0_0_1 : ScatterDims S20000x40 S180000x1 S180000x40 where
  updateWindowDims := [1]
  insertedWindowDims := [0]
  scatterDimsToOperandDims := [0]
  indexVectorDim := 1
  wf := scatter_S20000x40_S180000x1_S180000x40_1_0_0_1_wf

class Facts : Prop extends Facts₀ where

variable [Facts]
-- ==== Proof.Stretches.lean ====
/-
  The three stretches of host operations of the kernel program, each read as a function of the buffers it starts from.

  The program's host side is the graph-convolution arithmetic around the two matrix products: before the first product
  the edge lists with the self loops appended (source and destination node of each of the 180000 edges), the in-degree of
  every node as a scatter-add of ones, its inverse square root where positive, and the edge weight
  `d(src)^(-1/2) · d(dst)^(-1/2)`; between the products the first layer's aggregation (gather the product's rows at the
  sources, scale by the edge weight, scatter-add at the destinations, add the bias) and the relu; after the second product
  the second layer's aggregation.  The reference computes the same stages (the edge weight twice, once per layer, from the same
  edge lists).  Each lemma below says: from ANY buffer contents `W`, after the stretch, the named buffer holds the
  reference's stage of the same name, given that the buffers the stretch reads hold the reference's stages; and the buffers
  a stretch does not write keep their contents.
-/
import proofs.«128568_j83502754169548_1_alg».proof.Proof.Gen.KernelIdeal.Frame
import proofs.«128568_j83502754169548_1_alg».proof.Proof.RefReadP

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v32 val_main_v75 val_main_v7 val_main_v49 val_main_v50 val_main_v91)

variable {F : FTy → Type} [FloatOps F]

/-- Reads the operations' results that remain under a list of pieces (a concatenation's operands), one rewrite at a time. -/
macro "results_under_lists" : tactic =>
  `(tactic| repeat (first
       | rw [nullary_result] | rw [unary_result] | rw [binary_result] | rw [ternary_result] | rw [reshape_result]
       | (rw [nullary_result_ne]; rotate_left; decide)
       | (rw [unary_result_ne]; rotate_left; decide)
       | (rw [binary_result_ne]; rotate_left; decide)
       | (rw [ternary_result_ne]; rotate_left; decide)
       | (rw [reshape_result_ne]; rotate_left; decide)))

/-- The edge weight is computed from the edge lists alone, so the reference's two computations of it are one vector. -/
theorem weight_eq (x1 : (⟨Cert.ReferenceIdeal.S2x160000, .i32⟩ : BufTy).Contents (Elt F)) :
    val_main_v75 (F := F) x1 = val_main_v32 (F := F) x1 := rfl

/-! ## Before the first product -/

section Before
variable (W : Valuation τ sig (Elt F))

/-- The buffer contents after the operations before the first product, from contents `W`. -/
abbrev before : Valuation τ sig (Elt F) := after (hostOps0_2 (F := F)) (after (hostOps0_1 (F := F)) (after (hostOps0 (F := F)) W))

set_option maxHeartbeats 4000000 in
/-- The source nodes: row 0 of the edge array, then the nodes themselves. -/
theorem before_src : before W (Proc.devRef .tc main_v3) = val_main_v3 (F := F) (W (Proc.devRef .tc main_arg1)) := by
  simp only [before, hostOps0, hostOps0_1, hostOps0_2]
  after_results_simp
  results_under_lists
  rfl
set_option maxHeartbeats 4000000 in
/-- The destination nodes: row 1 of the edge array, then the nodes themselves. -/
theorem before_dst : before W (Proc.devRef .tc main_v6) = val_main_v6 (F := F) (W (Proc.devRef .tc main_arg1)) := by
  simp only [before, hostOps0, hostOps0_1, hostOps0_2]
  after_results_simp
  results_under_lists
  rfl
set_option maxHeartbeats 4000000 in
/-- The edge weights. -/
theorem before_weight : before W (Proc.devRef .tc main_v31) = val_main_v32 (F := F) (W (Proc.devRef .tc main_arg1)) := by
  simp only [before, hostOps0, hostOps0_1, hostOps0_2]
  after_results_simp
  results_under_lists
  rfl
theorem before_arg0 : before W (Proc.devRef .tc main_arg0) = W (Proc.devRef .tc main_arg0) := by
  simp only [before, hostOps0, hostOps0_1, hostOps0_2]
  after_results_simp
theorem before_arg2 : before W (Proc.devRef .tc main_arg2) = W (Proc.devRef .tc main_arg2) := by
  simp only [before, hostOps0, hostOps0_1, hostOps0_2]
  after_results_simp
theorem before_arg3 : before W (Proc.devRef .tc main_arg3) = W (Proc.devRef .tc main_arg3) := by
  simp only [before, hostOps0, hostOps0_1, hostOps0_2]
  after_results_simp
theorem before_arg4 : before W (Proc.devRef .tc main_arg4) = W (Proc.devRef .tc main_arg4) := by
  simp only [before, hostOps0, hostOps0_1, hostOps0_2]
  after_results_simp
theorem before_arg5 : before W (Proc.devRef .tc main_arg5) = W (Proc.devRef .tc main_arg5) := by
  simp only [before, hostOps0, hostOps0_1, hostOps0_2]
  after_results_simp

end Before

/-! ## Between the products -/

section Between
variable (W : Valuation τ sig (Elt F))

/-- The buffer contents after the operations between the two products, from contents `W`. -/
abbrev between : Valuation τ sig (Elt F) := after (hostOps1_1 (F := F)) (after (hostOps1 (F := F)) W)

set_option maxHeartbeats 2000000 in
/-- The first layer: the product's rows gathered at the sources, scaled by the edge weights, summed at the destinations,
    the bias added, negative entries cut to zero. -/
theorem between_hidden (x0 : (⟨Cert.ReferenceIdeal.S20000x512, .f32⟩ : BufTy).Contents (Elt F))
    (x1 : (⟨Cert.ReferenceIdeal.S2x160000, .i32⟩ : BufTy).Contents (Elt F))
    (x2 : (⟨Cert.ReferenceIdeal.S512x512, .f32⟩ : BufTy).Contents (Elt F))
    (x3 : (⟨Cert.ReferenceIdeal.S512, .f32⟩ : BufTy).Contents (Elt F))
    (hp : W (Proc.devRef .tc main_v32) = val_main_v7 (F := F) x0 x2)
    (hs : W (Proc.devRef .tc main_v3) = val_main_v3 (F := F) x1)
    (hd : W (Proc.devRef .tc main_v6) = val_main_v6 (F := F) x1)
    (hw : W (Proc.devRef .tc main_v31) = val_main_v32 (F := F) x1)
    (hb : W (Proc.devRef .tc main_arg3) = x3) :
    between W (Proc.devRef .tc main_v49) = val_main_v49 (F := F) x0 x1 x2 x3 := by
  simp only [between, hostOps1, hostOps1_1]
  after_results_simp
  rw [hp, hs, hd, hw, hb]
  rfl
theorem between_src : between W (Proc.devRef .tc main_v3) = W (Proc.devRef .tc main_v3) := by
  simp only [between, hostOps1, hostOps1_1]
  after_results_simp
theorem between_dst : between W (Proc.devRef .tc main_v6) = W (Proc.devRef .tc main_v6) := by
  simp only [between, hostOps1, hostOps1_1]
  after_results_simp
theorem between_weight : between W (Proc.devRef .tc main_v31) = W (Proc.devRef .tc main_v31) := by
  simp only [between, hostOps1, hostOps1_1]
  after_results_simp
theorem between_arg4 : between W (Proc.devRef .tc main_arg4) = W (Proc.devRef .tc main_arg4) := by
  simp only [between, hostOps1, hostOps1_1]
  after_results_simp
theorem between_arg5 : between W (Proc.devRef .tc main_arg5) = W (Proc.devRef .tc main_arg5) := by
  simp only [between, hostOps1, hostOps1_1]
  after_results_simp

end Between

/-! ## After the second product -/

section After
variable (W : Valuation τ sig (Elt F))

set_option maxHeartbeats 2000000 in
/-- The second layer: the second product's rows gathered at the sources, scaled by the edge weights, summed at the
    destinations, the bias added. -/
theorem after_out (x0 : (⟨Cert.ReferenceIdeal.S20000x512, .f32⟩ : BufTy).Contents (Elt F))
    (x1 : (⟨Cert.ReferenceIdeal.S2x160000, .i32⟩ : BufTy).Contents (Elt F))
    (x2 : (⟨Cert.ReferenceIdeal.S512x512, .f32⟩ : BufTy).Contents (Elt F))
    (x3 : (⟨Cert.ReferenceIdeal.S512, .f32⟩ : BufTy).Contents (Elt F))
    (x4 : (⟨Cert.ReferenceIdeal.S512x40, .f32⟩ : BufTy).Contents (Elt F))
    (x5 : (⟨Cert.ReferenceIdeal.S40, .f32⟩ : BufTy).Contents (Elt F))
    (hp : W (Proc.devRef .tc main_v50) = val_main_v50 (F := F) x0 x1 x2 x3 x4)
    (hs : W (Proc.devRef .tc main_v3) = val_main_v3 (F := F) x1)
    (hd : W (Proc.devRef .tc main_v6) = val_main_v6 (F := F) x1)
    (hw : W (Proc.devRef .tc main_v31) = val_main_v75 (F := F) x1)
    (hb : W (Proc.devRef .tc main_arg5) = x5) :
    after (hostOps2 (F := F)) W (Proc.devRef .tc main_v66) = val_main_v91 (F := F) x0 x1 x2 x3 x4 x5 := by
  simp only [hostOps2]
  after_results_simp
  rw [hp, hs, hd, hw, hb]
  rfl

end After

end Cert.KernelIdeal.Stretch

end
-- ==== Proof.Product0.lean ====
/-
  The first matrix product on the TensorCore, read as ONE array.

  The region runs the kernel body at ten grid points; at point `t` the body loads rows `2000·t … 2000·t + 1999` of the
  left operand (a [20000, 512] array) and the whole right operand (a [512, 512] array), multiplies them into a zero
  accumulator, and stores the [2000, 512] product, which is written back to rows `2000·t … 2000·t + 1999` of the
  output array.  At the extended reals the change of float format before the product is the identity and the product
  into zero is the plain sum `∑ k, a (r, k) · b (k, c)`.  The host's `dot_general` of the two WHOLE arrays is the same sum
  at every index (r, c).  So each written-back block is the block of that one whole-array function, the ten blocks tile
  the output array, and the array after the region is the host's `dot_general` of the region's two input arrays.
-/
import proofs.«128568_j83502754169548_1_alg».proof.Proof.Gen.KernelIdeal.Frame
import proofs.«128568_j83502754169548_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Product0

open Cert.KernelIdeal Cert.KernelIdeal.Gen
open Idealize.ShloMosaic Idealize.ShloMosaic.TcCoe Idealize.SL.Sem

/-- The block product's dimension numbers: [2000, 512] × [512, 512], contracting the 512-axis. -/
abbrev DK := dot_S2000x512_S512x512_S2000x512_1_0_0_1_n_n
/-- The whole-array product's dimension numbers: [20000, 512] × [512, 512], contracting the 512-axis. -/
abbrev DR := Cert.ReferenceIdeal.dot_S20000x512_S512x512_S20000x512_1_0_0_1_n_n

/-- The host's product of two whole arrays. -/
abbrev whole (A : FVec Ideal S20000x512 .f32) (B : FVec Ideal S512x512 .f32) : FVec Ideal S20000x512 .f32 :=
  Host.dotGeneral (F := Ideal) DR none A B

/-! ## The operand indices of a product at an output index and a contraction index -/

/-- Row `j 0`, column `k` of the left block. -/
abbrev lk (j : S2000x512.Idx) (k : Fin 512) : S2000x512.Idx := fun a => match a with
  | ⟨0, _⟩ => ⟨(j 0).val, (j 0).isLt⟩
  | ⟨1, _⟩ => ⟨k.val, k.isLt⟩
/-- Row `k`, column `j 1` of the right operand. -/
abbrev rk (j : S2000x512.Idx) (k : Fin 512) : S512x512.Idx := fun a => match a with
  | ⟨0, _⟩ => ⟨k.val, k.isLt⟩
  | ⟨1, _⟩ => ⟨(j 1).val, (j 1).isLt⟩
/-- Row `i 0`, column `k` of the whole left array. -/
abbrev lw (i : S20000x512.Idx) (k : Fin 512) : S20000x512.Idx := fun a => match a with
  | ⟨0, _⟩ => ⟨(i 0).val, (i 0).isLt⟩
  | ⟨1, _⟩ => ⟨k.val, k.isLt⟩
/-- Row `k`, column `i 1` of the right operand. -/
abbrev rw' (i : S20000x512.Idx) (k : Fin 512) : S512x512.Idx := fun a => match a with
  | ⟨0, _⟩ => ⟨k.val, k.isLt⟩
  | ⟨1, _⟩ => ⟨(i 1).val, (i 1).isLt⟩

theorem dk_lhs_0 (j : S2000x512.Idx) (q : DK.contr.Idx) : (DK.lhsIdx j q 0).val = (j 0).val := by
  unfold DotDims.lhsIdx
  rw [dif_neg (show ¬(0 : Fin S2000x512.rank) ∈ DK.lhsBatch by decide), dif_pos (show (0 : Fin S2000x512.rank) ∈ DK.lhsNonContracting by decide)]
  rfl
theorem dk_lhs_1 (j : S2000x512.Idx) (q : DK.contr.Idx) : (DK.lhsIdx j q 1).val = (q ⟨0, by decide⟩).val :=
  DK.lhsIdx_val_of_single rfl j q
theorem dk_rhs_0 (j : S2000x512.Idx) (q : DK.contr.Idx) : (DK.rhsIdx j q 0).val = (q ⟨0, by decide⟩).val :=
  DK.rhsIdx_val_of_single rfl j q
theorem dk_rhs_1 (j : S2000x512.Idx) (q : DK.contr.Idx) : (DK.rhsIdx j q 1).val = (j 1).val := by
  unfold DotDims.rhsIdx
  rw [dif_neg (show ¬(1 : Fin S512x512.rank) ∈ DK.rhsBatch by decide), dif_pos (show (1 : Fin S512x512.rank) ∈ DK.rhsNonContracting by decide)]
  rfl

theorem dr_lhs_0 (i : S20000x512.Idx) (q : DR.contr.Idx) : (DR.lhsIdx i q 0).val = (i 0).val := by
  unfold DotDims.lhsIdx
  rw [dif_neg (show ¬(0 : Fin S20000x512.rank) ∈ DR.lhsBatch by decide), dif_pos (show (0 : Fin S20000x512.rank) ∈ DR.lhsNonContracting by decide)]
  rfl
theorem dr_lhs_1 (i : S20000x512.Idx) (q : DR.contr.Idx) : (DR.lhsIdx i q 1).val = (q ⟨0, by decide⟩).val :=
  DR.lhsIdx_val_of_single rfl i q
theorem dr_rhs_0 (i : S20000x512.Idx) (q : DR.contr.Idx) : (DR.rhsIdx i q 0).val = (q ⟨0, by decide⟩).val :=
  DR.rhsIdx_val_of_single rfl i q
theorem dr_rhs_1 (i : S20000x512.Idx) (q : DR.contr.Idx) : (DR.rhsIdx i q 1).val = (i 1).val := by
  unfold DotDims.rhsIdx
  rw [dif_neg (show ¬(1 : Fin S512x512.rank) ∈ DR.rhsBatch by decide), dif_pos (show (1 : Fin S512x512.rank) ∈ DR.rhsNonContracting by decide)]
  rfl

/-! ## Both products as sums over the 512 columns -/

/-- The host's product of two whole arrays at an index: `∑ k, A (r, k) · B (k, c)`. -/
theorem whole_apply (A : FVec Ideal S20000x512 .f32) (B : FVec Ideal S512x512 .f32) (i : S20000x512.Idx) :
    whole A B i = ∑ k : Fin 512, A (lw i k) * B (rw' i k) := by
  simp only [whole, Host.dotGeneral]
  rw [Ideal.dotGeneral_apply, ← Equiv.sum_comp (ValueIdx.contrEquiv1 DR 512 rfl rfl).symm]
  refine Finset.sum_congr rfl fun k _ => ?_
  have hk := ValueIdx.contrEquiv1_symm_val DR 512 rfl rfl k
  have el : DR.lhsIdx i ((ValueIdx.contrEquiv1 DR 512 rfl rfl).symm k) = lw i k := funext fun a => Fin.ext (by
    match a with
    | ⟨0, _⟩ => exact dr_lhs_0 _ _
    | ⟨1, _⟩ => exact (dr_lhs_1 _ _).trans hk)
  have er : DR.rhsIdx i ((ValueIdx.contrEquiv1 DR 512 rfl rfl).symm k) = rw' i k := funext fun a => Fin.ext (by
    match a with
    | ⟨0, _⟩ => exact (dr_rhs_0 _ _).trans hk
    | ⟨1, _⟩ => exact dr_rhs_1 _ _)
  rw [el, er]

/-- The body's stored value at an index of the block: the conversions to bf16 are the identity at the extended reals,
    and the product into the zero accumulator is `∑ k, x0 (r, k) · x1 (k, c)`. -/
theorem block_apply (x0 : Vec Ideal S2000x512 .f32) (x1 : Vec Ideal S512x512 .f32) (j : S2000x512.Idx) :
    k0_pay1 (F := Ideal) x0 x1 j = ∑ k : Fin 512, x0 (lk j k) * x1 (rk j k) := by
  show FloatOps.matmul (F := Ideal) DK none (x0 : FVec Ideal S2000x512 .f32) (x1 : FVec Ideal S512x512 .f32) (constant S2000x512 .f32 0x00000000#32) j = _
  rw [Ideal.matmul_constant_zero_apply, ← Equiv.sum_comp (ValueIdx.contrEquiv1 DK 512 rfl rfl).symm]
  refine Finset.sum_congr rfl fun k _ => ?_
  have hk := ValueIdx.contrEquiv1_symm_val DK 512 rfl rfl k
  have el : DK.lhsIdx j ((ValueIdx.contrEquiv1 DK 512 rfl rfl).symm k) = lk j k := funext fun a => Fin.ext (by
    match a with
    | ⟨0, _⟩ => exact dk_lhs_0 _ _
    | ⟨1, _⟩ => exact (dk_lhs_1 _ _).trans hk)
  have er : DK.rhsIdx j ((ValueIdx.contrEquiv1 DK 512 rfl rfl).symm k) = rk j k := funext fun a => Fin.ext (by
    match a with
    | ⟨0, _⟩ => exact (dk_rhs_0 _ _).trans hk
    | ⟨1, _⟩ => exact dk_rhs_1 _ _)
  rw [el, er]

/-- A block's stored value is the whole product at the index the block element sits at, once the block's operands are
    the whole operands read at the matching rows and columns. -/
theorem block_eq_whole (A : FVec Ideal S20000x512 .f32) (B : FVec Ideal S512x512 .f32)
    (x0 : Vec Ideal S2000x512 .f32) (x1 : Vec Ideal S512x512 .f32) (j : S2000x512.Idx) (i : S20000x512.Idx)
    (h0 : ∀ k : Fin 512, x0 (lk j k) = A (lw i k)) (h1 : ∀ k : Fin 512, x1 (rk j k) = B (rw' i k)) :
    k0_pay1 (F := Ideal) x0 x1 j = whole A B i := by
  rw [block_apply, whole_apply]
  exact Finset.sum_congr rfl fun k _ => by rw [h0 k, h1 k]

/-! ## From the ten blocks to the array -/

theorem zero_offsets : (![0, 0] : Fin 2 → Nat) = fun _ => 0 := funext fun a => by fin_cases a <;> rfl

/-- The printed block index maps over the grid: the left operand's and the output's block row is the grid point,
    every other block index is zero. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the host's product of the region's two input arrays. -/
theorem flushed_eq (c : Dev nD) (t : Fin cfg0.N) :
    (dat0 (F := Ideal) V c).flushed 2 t
      = ((cfg0.win 2).blk t).view.read (Elt Ideal) (whole (V c main_arg0) (V c main_arg2)) := by
  show (cfg0.win 2).cut (grid0.coords t) ((dat0 V c).after 2 t) = _
  rw [after0_2]
  unfold out0_2
  rw [View.canon_unit_zero zero_offsets]
  simp only [View.ld_unit_zero (S := S2000x512) zero_offsets, View.ld_unit_zero (S := S512x512) zero_offsets]
  obtain ⟨e0, e1, e2, e3, e4, e5⟩ := index_maps t
  funext j
  refine block_eq_whole (V c main_arg0) (V c main_arg2) (iblk0 V c 0 t) (iblk0 V c 1 t) j (((cfg0.win 2).blk t).view.emb j) ?_ ?_
  · intro k
    show V c main_arg0 (((cfg0.win 0).blk t).view.emb (lk j k)) = V c main_arg0 (lw (((cfg0.win 2).blk t).view.emb j) k)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · intro k
    show V c main_arg2 (((cfg0.win 1).blk t).view.emb (rk j k)) = V c main_arg2 (rw' (((cfg0.win 2).blk t).view.emb j) k)
    refine congrArg (V c main_arg2) (funext fun a => Fin.ext ?_)
    match a with
    | ⟨0, _⟩ => show win0_1.index t (0 : Fin 2) * 512 + 1 * k.val = k.val; omega
    | ⟨1, _⟩ => show win0_1.index t (1 : Fin 2) * 512 + 1 * (j 1).val = win0_2.index t (1 : Fin 2) * 512 + 1 * (j 1).val; omega

/-- An index of the output array is in point `t`'s block iff each coordinate is in the block's range on its axis. -/
theorem mem_blk (t : Fin cfg0.N) (i : S20000x512.Idx) :
    i ∈ ((cfg0.win 2).blk t).view.set ↔ ∀ a : Fin 2, win0_2.index t a * S2000x512.size a ≤ (i a).val ∧ (i a).val < win0_2.index t a * S2000x512.size a + S2000x512.size a := by
  show i ∈ ((View.whole main_v32).slice (win0_2.rect t)).set ↔ _
  rw [View.set_slice_whole, Rect.mem_set_unit]
  exact Iff.rfl

/-- Row `r` of the output array is in the block of the point `r / 2000`: the ten blocks tile the array. -/
theorem cover (i : S20000x512.Idx) : ∃ t : Fin cfg0.N, (cfg0.win 2).flush t = true ∧ i ∈ ((cfg0.win 2).blk t).view.set := by
  have hi0 : (i 0).val < 20000 := (i 0).isLt
  have hi1 : (i 1).val < 512 := (i 1).isLt
  have hN : cfg0.N = 10 := N_0
  let t : Fin cfg0.N := ⟨(i 0).val / 2000, by rw [hN]; omega⟩
  obtain ⟨e0, e1, e2, e3, e4, e5⟩ := index_maps t
  have ht : t.val = (i 0).val / 2000 := rfl
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 512 ≤ (i 1).val ∧ (i 1).val < win0_2.index t (1 : Fin 2) * 512 + 512; omega

/-- THE ARRAY after the region: the host's product of the region's two input arrays as the region finds them. -/
theorem result (c : Dev nD) :
    (dat0 (F := Ideal) V c).arrAt 2 cfg0.N = whole (V c main_arg0) (V c main_arg2) :=
  (dat0 (F := Ideal) V c).arrAt_eq_of_cover 2 _ (fun t _ => flushed_eq V c t) cover

end Cert.KernelIdeal.Product0

end
-- ==== Proof.Product1.lean ====
/-
  The second matrix product on the TensorCore, read as ONE array.

  The region runs the kernel body at ten grid points; at point `t` the body loads rows `2000·t … 2000·t + 1999` of the
  left operand (a [20000, 512] array) and the whole right operand (a [512, 40] array), multiplies them into a zero
  accumulator, and stores the [2000, 40] product, which is written back to rows `2000·t … 2000·t + 1999` of the
  output array.  At the extended reals the change of float format before the product is the identity and the product
  into zero is the plain sum `∑ k, a (r, k) · b (k, c)`.  The host's `dot_general` of the two WHOLE arrays is the same sum
  at every index (r, c).  So each written-back block is the block of that one whole-array function, the ten blocks tile
  the output array, and the array after the region is the host's `dot_general` of the region's two input arrays.
-/
import proofs.«128568_j83502754169548_1_alg».proof.Proof.Gen.KernelIdeal.Frame
import proofs.«128568_j83502754169548_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.SL.Sem

/-- The block product's dimension numbers: [2000, 512] × [512, 40], contracting the 512-axis. -/
abbrev DK := dot_S2000x512_S512x40_S2000x40_1_0_0_1_n_n
/-- The whole-array product's dimension numbers: [20000, 512] × [512, 40], contracting the 512-axis. -/
abbrev DR := Cert.ReferenceIdeal.dot_S20000x512_S512x40_S20000x40_1_0_0_1_n_n

/-- The host's product of two whole arrays. -/
abbrev whole (A : FVec Ideal S20000x512 .f32) (B : FVec Ideal S512x40 .f32) : FVec Ideal S20000x40 .f32 :=
  Host.dotGeneral (F := Ideal) DR none A B

/-! ## The operand indices of a product at an output index and a contraction index -/

/-- Row `j 0`, column `k` of the left block. -/
abbrev lk (j : S2000x40.Idx) (k : Fin 512) : S2000x512.Idx := fun a => match a with
  | ⟨0, _⟩ => ⟨(j 0).val, (j 0).isLt⟩
  | ⟨1, _⟩ => ⟨k.val, k.isLt⟩
/-- Row `k`, column `j 1` of the right operand. -/
abbrev rk (j : S2000x40.Idx) (k : Fin 512) : S512x40.Idx := fun a => match a with
  | ⟨0, _⟩ => ⟨k.val, k.isLt⟩
  | ⟨1, _⟩ => ⟨(j 1).val, (j 1).isLt⟩
/-- Row `i 0`, column `k` of the whole left array. -/
abbrev lw (i : S20000x40.Idx) (k : Fin 512) : S20000x512.Idx := fun a => match a with
  | ⟨0, _⟩ => ⟨(i 0).val, (i 0).isLt⟩
  | ⟨1, _⟩ => ⟨k.val, k.isLt⟩
/-- Row `k`, column `i 1` of the right operand. -/
abbrev rw' (i : S20000x40.Idx) (k : Fin 512) : S512x40.Idx := fun a => match a with
  | ⟨0, _⟩ => ⟨k.val, k.isLt⟩
  | ⟨1, _⟩ => ⟨(i 1).val, (i 1).isLt⟩

theorem dk_lhs_0 (j : S2000x40.Idx) (q : DK.contr.Idx) : (DK.lhsIdx j q 0).val = (j 0).val := by
  unfold DotDims.lhsIdx
  rw [dif_neg (show ¬(0 : Fin S2000x512.rank) ∈ DK.lhsBatch by decide), dif_pos (show (0 : Fin S2000x512.rank) ∈ DK.lhsNonContracting by decide)]
  rfl
theorem dk_lhs_1 (j : S2000x40.Idx) (q : DK.contr.Idx) : (DK.lhsIdx j q 1).val = (q ⟨0, by decide⟩).val :=
  DK.lhsIdx_val_of_single rfl j q
theorem dk_rhs_0 (j : S2000x40.Idx) (q : DK.contr.Idx) : (DK.rhsIdx j q 0).val = (q ⟨0, by decide⟩).val :=
  DK.rhsIdx_val_of_single rfl j q
theorem dk_rhs_1 (j : S2000x40.Idx) (q : DK.contr.Idx) : (DK.rhsIdx j q 1).val = (j 1).val := by
  unfold DotDims.rhsIdx
  rw [dif_neg (show ¬(1 : Fin S512x40.rank) ∈ DK.rhsBatch by decide), dif_pos (show (1 : Fin S512x40.rank) ∈ DK.rhsNonContracting by decide)]
  rfl

theorem dr_lhs_0 (i : S20000x40.Idx) (q : DR.contr.Idx) : (DR.lhsIdx i q 0).val = (i 0).val := by
  unfold DotDims.lhsIdx
  rw [dif_neg (show ¬(0 : Fin S20000x512.rank) ∈ DR.lhsBatch by decide), dif_pos (show (0 : Fin S20000x512.rank) ∈ DR.lhsNonContracting by decide)]
  rfl
theorem dr_lhs_1 (i : S20000x40.Idx) (q : DR.contr.Idx) : (DR.lhsIdx i q 1).val = (q ⟨0, by decide⟩).val :=
  DR.lhsIdx_val_of_single rfl i q
theorem dr_rhs_0 (i : S20000x40.Idx) (q : DR.contr.Idx) : (DR.rhsIdx i q 0).val = (q ⟨0, by decide⟩).val :=
  DR.rhsIdx_val_of_single rfl i q
theorem dr_rhs_1 (i : S20000x40.Idx) (q : DR.contr.Idx) : (DR.rhsIdx i q 1).val = (i 1).val := by
  unfold DotDims.rhsIdx
  rw [dif_neg (show ¬(1 : Fin S512x40.rank) ∈ DR.rhsBatch by decide), dif_pos (show (1 : Fin S512x40.rank) ∈ DR.rhsNonContracting by decide)]
  rfl

/-! ## Both products as sums over the 512 columns -/

/-- The host's product of two whole arrays at an index: `∑ k, A (r, k) · B (k, c)`. -/
theorem whole_apply (A : FVec Ideal S20000x512 .f32) (B : FVec Ideal S512x40 .f32) (i : S20000x40.Idx) :
    whole A B i = ∑ k : Fin 512, A (lw i k) * B (rw' i k) := by
  simp only [whole, Host.dotGeneral]
  rw [Ideal.dotGeneral_apply, ← Equiv.sum_comp (ValueIdx.contrEquiv1 DR 512 rfl rfl).symm]
  refine Finset.sum_congr rfl fun k _ => ?_
  have hk := ValueIdx.contrEquiv1_symm_val DR 512 rfl rfl k
  have el : DR.lhsIdx i ((ValueIdx.contrEquiv1 DR 512 rfl rfl).symm k) = lw i k := funext fun a => Fin.ext (by
    match a with
    | ⟨0, _⟩ => exact dr_lhs_0 _ _
    | ⟨1, _⟩ => exact (dr_lhs_1 _ _).trans hk)
  have er : DR.rhsIdx i ((ValueIdx.contrEquiv1 DR 512 rfl rfl).symm k) = rw' i k := funext fun a => Fin.ext (by
    match a with
    | ⟨0, _⟩ => exact (dr_rhs_0 _ _).trans hk
    | ⟨1, _⟩ => exact dr_rhs_1 _ _)
  rw [el, er]

/-- The body's stored value at an index of the block: the cast of the left block to its own shape and the conversions to bf16
    are the identity at the extended reals,
    and the product into the zero accumulator is `∑ k, x0 (r, k) · x1 (k, c)`. -/
theorem block_apply (x0 : Vec Ideal S2000x512 .f32) (x1 : Vec Ideal S512x40 .f32) (j : S2000x40.Idx) :
    k1_pay1 (F := Ideal) x0 x1 j = ∑ k : Fin 512, x0 (lk j k) * x1 (rk j k) := by
  show FloatOps.matmul (F := Ideal) DK none (shapeCast S2000x512 (x0 : FVec Ideal S2000x512 .f32) shapeCasts_S2000x512_S2000x512) (x1 : FVec Ideal S512x40 .f32) (constant S2000x40 .f32 0x00000000#32) j = _
  rw [shapeCast_self]
  rw [Ideal.matmul_constant_zero_apply, ← Equiv.sum_comp (ValueIdx.contrEquiv1 DK 512 rfl rfl).symm]
  refine Finset.sum_congr rfl fun k _ => ?_
  have hk := ValueIdx.contrEquiv1_symm_val DK 512 rfl rfl k
  have el : DK.lhsIdx j ((ValueIdx.contrEquiv1 DK 512 rfl rfl).symm k) = lk j k := funext fun a => Fin.ext (by
    match a with
    | ⟨0, _⟩ => exact dk_lhs_0 _ _
    | ⟨1, _⟩ => exact (dk_lhs_1 _ _).trans hk)
  have er : DK.rhsIdx j ((ValueIdx.contrEquiv1 DK 512 rfl rfl).symm k) = rk j k := funext fun a => Fin.ext (by
    match a with
    | ⟨0, _⟩ => exact (dk_rhs_0 _ _).trans hk
    | ⟨1, _⟩ => exact dk_rhs_1 _ _)
  rw [el, er]

/-- A block's stored value is the whole product at the index the block element sits at, once the block's operands are
    the whole operands read at the matching rows and columns. -/
theorem block_eq_whole (A : FVec Ideal S20000x512 .f32) (B : FVec Ideal S512x40 .f32)
    (x0 : Vec Ideal S2000x512 .f32) (x1 : Vec Ideal S512x40 .f32) (j : S2000x40.Idx) (i : S20000x40.Idx)
    (h0 : ∀ k : Fin 512, x0 (lk j k) = A (lw i k)) (h1 : ∀ k : Fin 512, x1 (rk j k) = B (rw' i k)) :
    k1_pay1 (F := Ideal) x0 x1 j = whole A B i := by
  rw [block_apply, whole_apply]
  exact Finset.sum_congr rfl fun k _ => by rw [h0 k, h1 k]

/-! ## From the ten blocks to the array -/

theorem zero_offsets : (![0, 0] : Fin 2 → Nat) = fun _ => 0 := funext fun a => by fin_cases a <;> rfl

/-- The printed block index maps over the grid: the left operand's and the output's block row is the grid point,
    every other block index is zero. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- WHAT POINT `t` WRITES BACK is block `t` of the host's product of the region's two input arrays. -/
theorem flushed_eq (c : Dev nD) (t : Fin cfg1.N) :
    (dat1 (F := Ideal) V c).flushed 2 t
      = ((cfg1.win 2).blk t).view.read (Elt Ideal) (whole (V c main_v49) (V c main_arg4)) := by
  show (cfg1.win 2).cut (grid1.coords t) ((dat1 V c).after 2 t) = _
  rw [after1_2]
  unfold out1_2
  rw [View.canon_unit_zero zero_offsets]
  simp only [View.ld_unit_zero (S := S2000x512) zero_offsets, View.ld_unit_zero (S := S512x40) zero_offsets]
  obtain ⟨e0, e1, e2, e3, e4, e5⟩ := index_maps t
  funext j
  refine block_eq_whole (V c main_v49) (V c main_arg4) (iblk1 V c 0 t) (iblk1 V c 1 t) j (((cfg1.win 2).blk t).view.emb j) ?_ ?_
  · intro k
    show V c main_v49 (((cfg1.win 0).blk t).view.emb (lk j k)) = V c main_v49 (lw (((cfg1.win 2).blk t).view.emb j) k)
    refine congrArg (V c main_v49) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 512 + 1 * k.val = k.val; omega
  · intro k
    show V c main_arg4 (((cfg1.win 1).blk t).view.emb (rk j k)) = V c main_arg4 (rw' (((cfg1.win 2).blk t).view.emb j) k)
    refine congrArg (V c main_arg4) (funext fun a => Fin.ext ?_)
    match a with
    | ⟨0, _⟩ => show win1_1.index t (0 : Fin 2) * 512 + 1 * k.val = k.val; omega
    | ⟨1, _⟩ => show win1_1.index t (1 : Fin 2) * 40 + 1 * (j 1).val = win1_2.index t (1 : Fin 2) * 40 + 1 * (j 1).val; omega

/-- An index of the output array is in point `t`'s block iff each coordinate is in the block's range on its axis. -/
theorem mem_blk (t : Fin cfg1.N) (i : S20000x40.Idx) :
    i ∈ ((cfg1.win 2).blk t).view.set ↔ ∀ a : Fin 2, win1_2.index t a * S2000x40.size a ≤ (i a).val ∧ (i a).val < win1_2.index t a * S2000x40.size a + S2000x40.size a := by
  show i ∈ ((View.whole main_v50).slice (win1_2.rect t)).set ↔ _
  rw [View.set_slice_whole, Rect.mem_set_unit]
  exact Iff.rfl

/-- Row `r` of the output array is in the block of the point `r / 2000`: the ten blocks tile the array. -/
theorem cover (i : S20000x40.Idx) : ∃ t : Fin cfg1.N, (cfg1.win 2).flush t = true ∧ i ∈ ((cfg1.win 2).blk t).view.set := by
  have hi0 : (i 0).val < 20000 := (i 0).isLt
  have hi1 : (i 1).val < 40 := (i 1).isLt
  have hN : cfg1.N = 10 := N_1
  let t : Fin cfg1.N := ⟨(i 0).val / 2000, by rw [hN]; omega⟩
  obtain ⟨e0, e1, e2, e3, e4, e5⟩ := index_maps t
  have ht : t.val = (i 0).val / 2000 := rfl
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 40 ≤ (i 1).val ∧ (i 1).val < win1_2.index t (1 : Fin 2) * 40 + 40; omega

/-- THE ARRAY after the region: the host's product of the region's two input arrays as the region finds them. -/
theorem result (c : Dev nD) :
    (dat1 (F := Ideal) V c).arrAt 2 cfg1.N = whole (V c main_v49) (V c main_arg4) :=
  (dat1 (F := Ideal) V c).arrAt_eq_of_cover 2 _ (fun t _ => flushed_eq V c t) cover

end Cert.KernelIdeal.Product1

end
-- ==== Proof.KernelRun.lean ====
/-
  The kernel program's run with its RESULT named.

  The program is: host operations, a first matrix product on the TensorCore (ten row blocks of 2000 rows), host
  operations (gather, scale, scatter-add, bias, relu), a second matrix product (again ten row blocks), and host
  operations once more.  Its run is the run of these eight segments one after the other; the buffer contents at each
  boundary are the fold `Gen.W0 … Gen.W8` of the segments' effects over the launch memory.  Here the run is stated
  with the contents of EVERY unscoped buffer after the last segment read off the final state, so that besides the six
  argument arrays (which end as launched) the result buffer `main_v66` is known: it ends holding `Gen.W8` at that
  buffer.  What `Gen.W8` holds there, as a function of the arguments, is computed in the sibling modules.
-/
import proofs.«128568_j83502754169548_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; in the final state the result buffer holds
    the last boundary's contents `Gen.W8` at that buffer, and each argument array is as launched. -/
theorem run_W8 : θ_run defs (onTc (τ := τ) (main (F := F))) ⟨m, fun _ => 0, ρ⟩ (fun r => ∀ c : Dev nD,
      r.2.mem ((c.tc : Thread nD τ).loc main_v66) = W8 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v66 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Result

end
-- ==== Proof.Boundaries.lean ====
/-
  The kernel program's result as a function of its arguments.

  The buffer contents at the boundaries of the program's eight segments are followed from the launch to the return:
  before the first product the edge lists and the edge weights are the reference's; the first product's output array is
  the host's product of `x` and `W1` (the ten row blocks tile it); the stretch between the products turns it into the
  reference's hidden layer; the second product's output array is the host's product of that layer and `W2`; the last
  stretch turns it into the reference's result.  A region changes only its own output array, and a stretch of host
  operations only the buffers it writes, so the edge lists, the edge weights and the arguments are carried unchanged
  from boundary to boundary.
-/
import proofs.«128568_j83502754169548_1_alg».proof.Proof.Stretches
import proofs.«128568_j83502754169548_1_alg».proof.Proof.Product0
import proofs.«128568_j83502754169548_1_alg».proof.Proof.Product1
import proofs.«128568_j83502754169548_1_alg».proof.Proof.KernelRun

set_option maxRecDepth 16384

noncomputable section

namespace Cert.KernelIdeal.Boundary

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v32 val_main_v75 val_main_v7 val_main_v49 val_main_v50 val_main_v91)

variable (m : (ℓ : Loc nD τ sig) → Buf (Elt Ideal) ℓ) (ρ : Dev nD → PrngReg) (c : Dev nD)

/-! ## At the first region's entry -/

theorem src3 : W3 m ρ c (Proc.devRef .tc main_v3) = val_main_v3 (F := Ideal) (m ((c : Thread nD τ).loc main_arg1)) := Stretch.before_src (W0 m ρ c)
theorem dst3 : W3 m ρ c (Proc.devRef .tc main_v6) = val_main_v6 (F := Ideal) (m ((c : Thread nD τ).loc main_arg1)) := Stretch.before_dst (W0 m ρ c)
theorem wgt3 : W3 m ρ c (Proc.devRef .tc main_v31) = val_main_v32 (F := Ideal) (m ((c : Thread nD τ).loc main_arg1)) := Stretch.before_weight (W0 m ρ c)
theorem arg0_3 : W3 m ρ c (Proc.devRef .tc main_arg0) = (m ((c : Thread nD τ).loc main_arg0)) := Stretch.before_arg0 (W0 m ρ c)
theorem arg2_3 : W3 m ρ c (Proc.devRef .tc main_arg2) = (m ((c : Thread nD τ).loc main_arg2)) := Stretch.before_arg2 (W0 m ρ c)
theorem arg3_3 : W3 m ρ c (Proc.devRef .tc main_arg3) = (m ((c : Thread nD τ).loc main_arg3)) := Stretch.before_arg3 (W0 m ρ c)
theorem arg4_3 : W3 m ρ c (Proc.devRef .tc main_arg4) = (m ((c : Thread nD τ).loc main_arg4)) := Stretch.before_arg4 (W0 m ρ c)
theorem arg5_3 : W3 m ρ c (Proc.devRef .tc main_arg5) = (m ((c : Thread nD τ).loc main_arg5)) := Stretch.before_arg5 (W0 m ρ c)

/-! ## At the first region's exit -/

/-- The first product's output array: the host's product of `x` and `W1`. -/
theorem prod4 : W4 m ρ c (Proc.devRef .tc main_v32) = val_main_v7 (F := Ideal) (m ((c : Thread nD τ).loc main_arg0)) (m ((c : Thread nD τ).loc main_arg2)) :=
  (W4_arr m ρ c 2).trans ((Product0.result (V3 m ρ) c).trans
    (congr (congrArg Product0.whole (arg0_3 m ρ c)) (arg2_3 m ρ c)))
theorem src4 : W4 m ρ c (Proc.devRef .tc main_v3) = val_main_v3 (F := Ideal) (m ((c : Thread nD τ).loc main_arg1)) := (W4_of_ne m ρ c main_v3 (by decide)).trans (src3 m ρ c)
theorem dst4 : W4 m ρ c (Proc.devRef .tc main_v6) = val_main_v6 (F := Ideal) (m ((c : Thread nD τ).loc main_arg1)) := (W4_of_ne m ρ c main_v6 (by decide)).trans (dst3 m ρ c)
theorem wgt4 : W4 m ρ c (Proc.devRef .tc main_v31) = val_main_v32 (F := Ideal) (m ((c : Thread nD τ).loc main_arg1)) := (W4_of_ne m ρ c main_v31 (by decide)).trans (wgt3 m ρ c)
theorem arg3_4 : W4 m ρ c (Proc.devRef .tc main_arg3) = (m ((c : Thread nD τ).loc main_arg3)) := (W4_of_ne m ρ c main_arg3 (by decide)).trans (arg3_3 m ρ c)
theorem arg4_4 : W4 m ρ c (Proc.devRef .tc main_arg4) = (m ((c : Thread nD τ).loc main_arg4)) := (W4_of_ne m ρ c main_arg4 (by decide)).trans (arg4_3 m ρ c)
theorem arg5_4 : W4 m ρ c (Proc.devRef .tc main_arg5) = (m ((c : Thread nD τ).loc main_arg5)) := (W4_of_ne m ρ c main_arg5 (by decide)).trans (arg5_3 m ρ c)

/-! ## At the second region's entry -/

/-- The hidden layer. -/
theorem hid6 : W6 m ρ c (Proc.devRef .tc main_v49) = val_main_v49 (F := Ideal) (m ((c : Thread nD τ).loc main_arg0)) (m ((c : Thread nD τ).loc main_arg1)) (m ((c : Thread nD τ).loc main_arg2)) (m ((c : Thread nD τ).loc main_arg3)) :=
  Stretch.between_hidden (W4 m ρ c) _ _ _ _ (prod4 m ρ c) (src4 m ρ c) (dst4 m ρ c) (wgt4 m ρ c) (arg3_4 m ρ c)
theorem src6 : W6 m ρ c (Proc.devRef .tc main_v3) = val_main_v3 (F := Ideal) (m ((c : Thread nD τ).loc main_arg1)) := (Stretch.between_src (W4 m ρ c)).trans (src4 m ρ c)
theorem dst6 : W6 m ρ c (Proc.devRef .tc main_v6) = val_main_v6 (F := Ideal) (m ((c : Thread nD τ).loc main_arg1)) := (Stretch.between_dst (W4 m ρ c)).trans (dst4 m ρ c)
theorem wgt6 : W6 m ρ c (Proc.devRef .tc main_v31) = val_main_v32 (F := Ideal) (m ((c : Thread nD τ).loc main_arg1)) := (Stretch.between_weight (W4 m ρ c)).trans (wgt4 m ρ c)
theorem arg4_6 : W6 m ρ c (Proc.devRef .tc main_arg4) = (m ((c : Thread nD τ).loc main_arg4)) := (Stretch.between_arg4 (W4 m ρ c)).trans (arg4_4 m ρ c)
theorem arg5_6 : W6 m ρ c (Proc.devRef .tc main_arg5) = (m ((c : Thread nD τ).loc main_arg5)) := (Stretch.between_arg5 (W4 m ρ c)).trans (arg5_4 m ρ c)

/-! ## At the second region's exit -/

/-- The second product's output array: the host's product of the hidden layer and `W2`. -/
theorem prod7 : W7 m ρ c (Proc.devRef .tc main_v50) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans ((Product1.result (V6 m ρ) c).trans
    (congr (congrArg Product1.whole (hid6 m ρ c)) (arg4_6 m ρ c)))
theorem src7 : W7 m ρ c (Proc.devRef .tc main_v3) = val_main_v3 (F := Ideal) (m ((c : Thread nD τ).loc main_arg1)) := (W7_of_ne m ρ c main_v3 (by decide)).trans (src6 m ρ c)
theorem dst7 : W7 m ρ c (Proc.devRef .tc main_v6) = val_main_v6 (F := Ideal) (m ((c : Thread nD τ).loc main_arg1)) := (W7_of_ne m ρ c main_v6 (by decide)).trans (dst6 m ρ c)
theorem wgt7 : W7 m ρ c (Proc.devRef .tc main_v31) = val_main_v32 (F := Ideal) (m ((c : Thread nD τ).loc main_arg1)) := (W7_of_ne m ρ c main_v31 (by decide)).trans (wgt6 m ρ c)
theorem arg5_7 : W7 m ρ c (Proc.devRef .tc main_arg5) = (m ((c : Thread nD τ).loc main_arg5)) := (W7_of_ne m ρ c main_arg5 (by decide)).trans (arg5_6 m ρ c)

/-! ## At the return -/

/-- The result buffer: the reference's last stage of the six arguments. -/
theorem out8 : W8 m ρ c (Proc.devRef .tc main_v66) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  Stretch.after_out (W7 m ρ c) _ _ _ _ _ _ (prod7 m ρ c) (src7 m ρ c) (dst7 m ρ c)
    ((wgt7 m ρ c).trans (Stretch.weight_eq _).symm) (arg5_7 m ρ c)

/-- THE RUN: every weakly fair execution of the kernel program terminates without a fault, the result buffer holding the
    reference's last stage of the argument arrays, the argument arrays unchanged. -/
theorem run : θ_run defs (onTc (τ := τ) (main (F := Ideal))) ⟨m, fun _ => 0, ρ⟩ (fun r => ∀ c : Dev nD,
      r.2.mem ((c.tc : Thread nD τ).loc main_v66) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out8 m ρ c), (h c).2⟩) (Result.run_W8 m ρ)

end Cert.KernelIdeal.Boundary

end
-- ==== Proof.LibFold.lean ====
/-
  Two general facts for reading what a line of host operations leaves in a buffer.

  * `after_append`: running two lines of operations one after the other is running their concatenation —
    so a long line can be cut where its mathematics changes and each part read by itself.
  * `concat2`: a `stablehlo.concatenate` of two operands along an axis as a function of the two operands:
    `concat2 t ax s₁ s₂ h a b` is, by definition, the concatenation of the list [(s₁, a), (s₂, b)]. What a line of
    operations containing such a concatenate leaves in a buffer is then a term in which the concatenate's two
    operands appear as arguments, like those of every other operation.
-/
import Idealize.ShloMosaic.Lib.StableHlo.Run

noncomputable section

namespace Cert.LibFold

open Idealize.ShloMosaic Idealize.ShloMosaic.StableHlo

/-- The concatenation of two vectors `a`, `b` of shapes `s₁`, `s₂` along axis `ax` of the result shape `t`. -/
def concat2 {α : Type} (t : Shape) (ax : Fin t.rank) (s₁ s₂ : Shape) (h : Shape.Concatenates [s₁, s₂] t ax)
    (a : s₁.Idx → α) (b : s₂.Idx → α) : t.Idx → α :=
  concatenate t ax [⟨s₁, a⟩, ⟨s₂, b⟩] h

/-- Two lines of host operations run in order are their concatenation run as one line. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibFold

end
-- ==== Proof.RefResult.lean ====
/-
  The reference program's run with its result named by stages.

  The reference's run ends with the result buffer at the composed term of its 122 host operations; that term is, by
  unfolding, the last of the stages `val_main_v…` (one per operation) applied to the six argument arrays.
-/
import proofs.«128568_j83502754169548_1_alg».proof.Proof.RefRunP
import proofs.«128568_j83502754169548_1_alg».proof.Proof.RefReadP

set_option maxRecDepth 16384

noncomputable section

namespace Cert.ReferenceIdeal.Result

open Cert.ReferenceIdeal Cert.ReferenceIdeal.Gen Idealize.ShloMosaic Idealize.ShloMosaic.TcCoe Idealize.SL.Sem Idealize.ShloMosaic.StableHlo
open Cert.ReferenceIdeal.ReadP (val_main_v91)

variable {F : FTy → Type} [FloatOps F]

/-- The run's composed term is the last stage of the arguments. -/
theorem res_eq (m : (ℓ : Loc nD τ sig) → Buf (Elt F) ℓ) (c : Dev nD) :
    Cert.ReferenceIdeal.ValueP.res_main_v91 m c = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v91; rfl

/-- Every weakly fair execution of the reference terminates without a fault, the result buffer holding the last stage of
    the argument arrays, the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v91) = val_main_v91 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (res_eq m c), (h c).2⟩) (Cert.ReferenceIdeal.ValueP.run m ρ)

end Cert.ReferenceIdeal.Result

end
-- ==== Proof.lean ====
/-
  A two-layer graph convolution, its two dense products on the TensorCore, against the all-host reference.

  Both programs compute, from node features `x` [20000, 512], an edge array [2, 160000] and two layers' weights and biases,
      out = Agg (relu (Agg (x · W1) + b1) · W2) + b2,
  where `Agg h` gathers the rows of `h` at the edges' source nodes (self loops appended), scales each by
  `d(src)^(-1/2) · d(dst)^(-1/2)` (`d` the in-degree, counted by a scatter-add of ones), and sums them at the destination
  nodes.  The kernel program runs the two products `x · W1` and `h · W2` as TensorCore kernels over ten row blocks of 2000
  rows, converting the operands to bf16 first; the reference runs them as host `dot_general`s; all the rest is the same
  host arithmetic on both sides.  At the extended reals a change of float format is the identity and a block product into
  a zero accumulator is the same finite sum as the host's product at that index, so each kernel's output array is the
  host's product of its input arrays (Proof/Product0.lean, Proof/Product1.lean).  Following the buffer contents through the
  program's segments (Proof/Stretches.lean, Proof/Boundaries.lean) the kernel program's result is the reference's last
  stage of the arguments, which is what the reference's run ends with (Proof/RefResult.lean).  No law of the extended reals
  beyond this rewriting of the two products is used, so the inputs' finiteness is never opened.

  The three frames: the kernel programs' are the generated frame certificates; the reference's is its run with the result
  dropped.  The idealization rewrote no operation, so `preserves` is `True`.
-/
import proofs.«128568_j83502754169548_1_alg».proof.Defs
import proofs.«128568_j83502754169548_1_alg».proof.Proof.Gen.Kernel
import proofs.«128568_j83502754169548_1_alg».proof.Proof.Gen.Kernel.Skeleton
import proofs.«128568_j83502754169548_1_alg».proof.Proof.Gen.Kernel.Launch
import proofs.«128568_j83502754169548_1_alg».proof.Proof.Gen.Kernel.Points
import proofs.«128568_j83502754169548_1_alg».proof.Proof.Gen.Kernel.Frame
import proofs.«128568_j83502754169548_1_alg».proof.Proof.Gen.KernelIdeal
import proofs.«128568_j83502754169548_1_alg».proof.Proof.Gen.KernelIdeal.Skeleton
import proofs.«128568_j83502754169548_1_alg».proof.Proof.Gen.KernelIdeal.Launch
import proofs.«128568_j83502754169548_1_alg».proof.Proof.Gen.KernelIdeal.Points
import proofs.«128568_j83502754169548_1_alg».proof.Proof.Gen.KernelIdeal.Frame
import proofs.«128568_j83502754169548_1_alg».proof.Proof.Gen.ReferenceIdeal
import proofs.«128568_j83502754169548_1_alg».proof.Proof.Gen.Pre_finite_inputs
import proofs.«128568_j83502754169548_1_alg».proof.Proof.Boundaries
import proofs.«128568_j83502754169548_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Result.run (F := Ideal) m ρ)

/-- The idealization rewrote nothing. -/
theorem preserves : Cert.preserves_Kernel_KernelIdeal := trivial

/-- From memories agreeing on the six arguments, the kernel program's result buffer ends at the reference's last stage of
    its arguments and the reference's result buffer at the same stage of its own: one array. -/
theorem algebraic : Cert.algebraic_KernelIdeal_ReferenceIdeal := by
  intro m ρ m' ρ' _ hagree
  refine ⟨_, Cert.KernelIdeal.Boundary.run m ρ, ?_⟩
  refine (θ_run Cert.ReferenceIdeal.defs _ _).mono (fun _ h c => ⟨(h c).1.trans ?_, (h c).2⟩)
    (Cert.ReferenceIdeal.Result.run (F := Ideal) m' ρ')
  rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
